-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v38)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v38) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v44) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S40000x128 : Shape := ⟨2, ![40000, 128]⟩
abbrev S640000 : Shape := ⟨1, ![640000]⟩
abbrev S128x256 : Shape := ⟨2, ![128, 256]⟩
abbrev S256 : Shape := ⟨1, ![256]⟩
abbrev S256x40 : Shape := ⟨2, ![256, 40]⟩
abbrev S40 : Shape := ⟨1, ![40]⟩
abbrev S_ : Shape := ⟨0, ![]⟩

class Facts : Prop where
  bcast_S_S40000x128 : S_.BroadcastsInDim S40000x128 (![] : Fin 0 → Fin S40000x128.rank)
  reducesTo_S40000x128_S_d0_1 : S40000x128.ReducesTo [0, 1] S_
  h_S_ : 0 < S_.numel
  bcast_S_S128x256 : S_.BroadcastsInDim S128x256 (![] : Fin 0 → Fin S128x256.rank)
  reducesTo_S128x256_S_d0_1 : S128x256.ReducesTo [0, 1] S_
  bcast_S_S256 : S_.BroadcastsInDim S256 (![] : Fin 0 → Fin S256.rank)
  reducesTo_S256_S_d0 : S256.ReducesTo [0] S_
  bcast_S_S256x40 : S_.BroadcastsInDim S256x40 (![] : Fin 0 → Fin S256x40.rank)
  reducesTo_S256x40_S_d0_1 : S256x40.ReducesTo [0, 1] S_
  bcast_S_S40 : S_.BroadcastsInDim S40 (![] : Fin 0 → Fin S40.rank)
  reducesTo_S40_S_d0 : S40.ReducesTo [0] S_

variable [Facts]

def fn_part1 {F : FTy → Type} [FloatOps F] (main_arg6 : FVec F S40 .f32) (main_v13 : IVec S_ 1) (main_v16 : IVec S256x40 1) : IVec S_ 1 :=
  let main_c_5 : IVec S_ 1 := constantI S_ 1 1#1
  let main_v17 : IVec S_ 1 := (fun x v => Host.reduce IntOp.andi x v reducesTo_S256x40_S_d0_1 h_S_) main_v16 main_c_5
  let main_v18 : IVec S_ 1 := andi main_v13 main_v17
  let main_v19 : FVec F S40 .f32 := Host.absf main_arg6
  let main_cst_6 : FVec F S_ .f32 := constant S_ .f32 0x7F800000#32
  let main_v20 : FVec F S40 .f32 := broadcastInDim S40 ![] bcast_S_S40 main_cst_6
  let main_v21 : IVec S40 1 := cmpf .olt main_v19 main_v20
  let main_c_7 : IVec S_ 1 := constantI S_ 1 1#1
  let main_v22 : IVec S_ 1 := (fun x v => Host.reduce IntOp.andi x v reducesTo_S40_S_d0 h_S_) main_v21 main_c_7
  let main_v23 : IVec S_ 1 := andi main_v18 main_v22
  main_v23

def fn {F : FTy → Type} [FloatOps F] (main_arg0 : FVec F S40000x128 .f32) (main_arg1 : IVec S640000 32) (main_arg2 : IVec S640000 32) (main_arg3 : FVec F S128x256 .f32) (main_arg4 : FVec F S256 .f32) (main_arg5 : FVec F S256x40 .f32) (main_arg6 : FVec F S40 .f32) : IVec S_ 1 :=
  let main_v0 : FVec F S40000x128 .f32 := Host.absf main_arg0
  let main_cst : FVec F S_ .f32 := constant S_ .f32 0x7F800000#32
  let main_v1 : FVec F S40000x128 .f32 := broadcastInDim S40000x128 ![] bcast_S_S40000x128 main_cst
  let main_v2 : IVec S40000x128 1 := cmpf .olt main_v0 main_v1
  let main_c : IVec S_ 1 := constantI S_ 1 1#1
  let main_v3 : IVec S_ 1 := (fun x v => Host.reduce IntOp.andi x v reducesTo_S40000x128_S_d0_1 h_S_) main_v2 main_c
  let main_v4 : FVec F S128x256 .f32 := Host.absf main_arg3
  let main_cst_0 : FVec F S_ .f32 := constant S_ .f32 0x7F800000#32
  let main_v5 : FVec F S128x256 .f32 := broadcastInDim S128x256 ![] bcast_S_S128x256 main_cst_0
  let main_v6 : IVec S128x256 1 := cmpf .olt main_v4 main_v5
  let main_c_1 : IVec S_ 1 := constantI S_ 1 1#1
  let main_v7 : IVec S_ 1 := (fun x v => Host.reduce IntOp.andi x v reducesTo_S128x256_S_d0_1 h_S_) main_v6 main_c_1
  let main_v8 : IVec S_ 1 := andi main_v3 main_v7
  let main_v9 : FVec F S256 .f32 := Host.absf main_arg4
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256x40 .f32 := Host.absf main_arg5
  let main_cst_4 : FVec F S_ .f32 := constant S_ .f32 0x7F800000#32
  let main_v15 : FVec F S256x40 .f32 := broadcastInDim S256x40 ![] bcast_S_S256x40 main_cst_4
  let main_v16 : IVec S256x40 1 := cmpf .olt main_v14 main_v15
  fn_part1 (F := F) main_arg6 main_v13 main_v16
-- ==== Kernel.lean ====
abbrev S40000x128 : Shape := ⟨2, ![40000, 128]⟩
abbrev S640000 : Shape := ⟨1, ![640000]⟩
abbrev S128x256 : Shape := ⟨2, ![128, 256]⟩
abbrev S256 : Shape := ⟨1, ![256]⟩
abbrev S256x40 : Shape := ⟨2, ![256, 40]⟩
abbrev S40 : Shape := ⟨1, ![40]⟩
abbrev S_ : Shape := ⟨0, ![]⟩
abbrev S40000 : Shape := ⟨1, ![40000]⟩
abbrev S640000x1 : Shape := ⟨2, ![640000, 1]⟩
abbrev S40000x1 : Shape := ⟨2, ![40000, 1]⟩
abbrev S640000x128 : Shape := ⟨2, ![640000, 128]⟩
abbrev S1x256 : Shape := ⟨2, ![1, 256]⟩
abbrev S1x40 : Shape := ⟨2, ![1, 40]⟩
abbrev S40000x40 : Shape := ⟨2, ![40000, 40]⟩
abbrev S1000x128 : Shape := ⟨2, ![1000, 128]⟩
abbrev S1000x40 : Shape := ⟨2, ![1000, 40]⟩
abbrev S1000x256 : Shape := ⟨2, ![1000, 256]⟩

abbrev nBuf : Space → Nat
  | .hbm => 55
  | .vmem => 8
  | .smem => 0
  | _ => 0

abbrev bufTy : (tb : Table) → Fin (tcTables nBuf tb) → BufTy
  | .hbm, ⟨0, _⟩ => ⟨S40000x128, .f32⟩
  | .hbm, ⟨1, _⟩ => ⟨S640000, .i32⟩
  | .hbm, ⟨2, _⟩ => ⟨S640000, .i32⟩
  | .hbm, ⟨3, _⟩ => ⟨S128x256, .f32⟩
  | .hbm, ⟨4, _⟩ => ⟨S256, .f32⟩
  | .hbm, ⟨5, _⟩ => ⟨S256x40, .f32⟩
  | .hbm, ⟨6, _⟩ => ⟨S40, .f32⟩
  | .hbm, ⟨7, _⟩ => ⟨S_, .f32⟩
  | .hbm, ⟨8, _⟩ => ⟨S640000, .f32⟩
  | .hbm, ⟨9, _⟩ => ⟨S_, .f32⟩
  | .hbm, ⟨10, _⟩ => ⟨S40000, .f32⟩
  | .hbm, ⟨11, _⟩ => ⟨S640000x1, .i32⟩
  | .hbm, ⟨12, _⟩ => ⟨S40000, .f32⟩
  | .hbm, ⟨13, _⟩ => ⟨S_, .f32⟩
  | .hbm, ⟨14, _⟩ => ⟨S40000, .f32⟩
  | .hbm, ⟨15, _⟩ => ⟨S40000, .f32⟩
  | .hbm, ⟨16, _⟩ => ⟨S40000, .f32⟩
  | .hbm, ⟨17, _⟩ => ⟨S40000x1, .f32⟩
  | .hbm, ⟨18, _⟩ => ⟨S40000x128, .f32⟩
  | .hbm, ⟨19, _⟩ => ⟨S40000x128, .f32⟩
  | .hbm, ⟨20, _⟩ => ⟨S_, .i32⟩
  | .hbm, ⟨21, _⟩ => ⟨S640000, .i32⟩
  | .hbm, ⟨22, _⟩ => ⟨S640000, .i1⟩
  | .hbm, ⟨23, _⟩ => ⟨S_, .i32⟩
  | .hbm, ⟨24, _⟩ => ⟨S640000, .i32⟩
  | .hbm, ⟨25, _⟩ => ⟨S640000, .i32⟩
  | .hbm, ⟨26, _⟩ => ⟨S640000, .i32⟩
  | .hbm, ⟨27, _⟩ => ⟨S640000x1, .i32⟩
  | .hbm, ⟨28, _⟩ => ⟨S640000x128, .f32⟩
  | .hbm, ⟨29, _⟩ => ⟨S_, .f32⟩
  | .hbm, ⟨30, _⟩ => ⟨S40000x128, .f32⟩
  | .hbm, ⟨31, _⟩ => ⟨S640000x1, .i32⟩
  | .hbm, ⟨32, _⟩ => ⟨S40000x128, .f32⟩
  | .hbm, ⟨33, _⟩ => ⟨S40000x128, .f32⟩
  | .hbm, ⟨34, _⟩ => ⟨S40000x128, .f32⟩
  | .hbm, ⟨35, _⟩ => ⟨S40000x128, .f32⟩
  | .hbm, ⟨36, _⟩ => ⟨S40000x128, .f32⟩
  | .hbm, ⟨37, _⟩ => ⟨S_, .i32⟩
  | .hbm, ⟨38, _⟩ => ⟨S640000, .i32⟩
  | .hbm, ⟨39, _⟩ => ⟨S640000, .i1⟩
  | .hbm, ⟨40, _⟩ => ⟨S_, .i32⟩
  | .hbm, ⟨41, _⟩ => ⟨S640000, .i32⟩
  | .hbm, ⟨42, _⟩ => ⟨S640000, .i32⟩
  | .hbm, ⟨43, _⟩ => ⟨S640000, .i32⟩
  | .hbm, ⟨44, _⟩ => ⟨S640000x1, .i32⟩
  | .hbm, ⟨45, _⟩ => ⟨S640000x128, .f32⟩
  | .hbm, ⟨46, _⟩ => ⟨S_, .f32⟩
  | .hbm, ⟨47, _⟩ => ⟨S40000x128, .f32⟩
  | .hbm, ⟨48, _⟩ => ⟨S640000x1, .i32⟩
  | .hbm, ⟨49, _⟩ => ⟨S40000x128, .f32⟩
  | .hbm, ⟨50, _⟩ => ⟨S40000x128, .f32⟩
  | .hbm, ⟨51, _⟩ => ⟨S40000x128, .f32⟩
  | .hbm, ⟨52, _⟩ => ⟨S1x256, .f32⟩
  | .hbm, ⟨53, _⟩ => ⟨S1x40, .f32⟩
  | .hbm, ⟨54, _⟩ => ⟨S40000x40, .f32⟩
  | .local _ .vmem, ⟨0, _⟩ => ⟨S1000x128, .f32⟩
  | .local _ .vmem, ⟨1, _⟩ => ⟨S1000x128, .f32⟩
  | .local _ .vmem, ⟨2, _⟩ => ⟨S128x256, .f32⟩
  | .local _ .vmem, ⟨3, _⟩ => ⟨S1x256, .f32⟩
  | .local _ .vmem, ⟨4, _⟩ => ⟨S256x40, .f32⟩
  | .local _ .vmem, ⟨5, _⟩ => ⟨S1x40, .f32⟩
  | .local _ .vmem, ⟨6, _⟩ => ⟨S1000x40, .f32⟩
  | .local _ .vmem, ⟨7, _⟩ => ⟨S1000x40, .f32⟩
  | _, _ => ⟨S40000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_cst_0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst_1 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_c : Ref sig .tc := ⟨.hbm, 20, rfl⟩
abbrev main_v10 : Ref sig .tc := ⟨.hbm, 21, rfl⟩
abbrev main_v11 : Ref sig .tc := ⟨.hbm, 22, rfl⟩
abbrev main_c_2 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_cst_3 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_c_4 : Ref sig .tc := ⟨.hbm, 37, rfl⟩
abbrev main_v24 : Ref sig .tc := ⟨.hbm, 38, rfl⟩
abbrev main_v25 : Ref sig .tc := ⟨.hbm, 39, rfl⟩
abbrev main_c_5 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_cst_6 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![40], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x40 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x40 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1000x40 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  bcast_S_S640000 : S_.BroadcastsInDim S640000 (![] : Fin 0 → Fin S640000.rank)
  bcast_S_S40000 : S_.BroadcastsInDim S40000 (![] : Fin 0 → Fin S40000.rank)
  bcast_S640000_S640000x1_0 : S640000.BroadcastsInDim S640000x1 (![0] : Fin 1 → Fin S640000x1.rank)
  bcast_S40000_S40000x1_0 : S40000.BroadcastsInDim S40000x1 (![0] : Fin 1 → Fin S40000x1.rank)
  bcast_S40000x1_S40000x128_0_1 : S40000x1.BroadcastsInDim S40000x128 (![0, 1] : Fin 2 → Fin S40000x128.rank)
  bcast_S_S40000x128 : S_.BroadcastsInDim S40000x128 (![] : Fin 0 → Fin S40000x128.rank)
  shapeCasts_S256_S1x256 : S256.ShapeCasts S1x256
  shapeCasts_S40_S1x40 : S40.ShapeCasts S1x40
  inb_S1000x128_S1000x128_0_0 : ∀ a, (![0, 0] : Fin 2 → Nat) a + S1000x128.size a ≤ S1000x128.size a
  h_S1000x128 : 0 < S1000x128.numel
  shapeCasts_S1000x128_S1000x128 : S1000x128.ShapeCasts S1000x128
  bitsLt_bf16_f32 : FTy.bits .bf16 < FTy.bits .f32
  inb_S128x256_S128x256_0_0 : ∀ a, (![0, 0] : Fin 2 → Nat) a + S128x256.size a ≤ S128x256.size a
  h_S128x256 : 0 < S128x256.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S1000x256 : S1x256.Broadcasts S1000x256
  inb_S256x40_S256x40_0_0 : ∀ a, (![0, 0] : Fin 2 → Nat) a + S256x40.size a ≤ S256x40.size a
  h_S256x40 : 0 < S256x40.numel
  inb_S1x40_S1x40_0_0 : ∀ a, (![0, 0] : Fin 2 → Nat) a + S1x40.size a ≤ S1x40.size a
  h_S1x40 : 0 < S1x40.numel
  shapeCasts_S1x40_S1x40 : S1x40.ShapeCasts S1x40
  broadcasts_S1x40_S1000x40 : S1x40.Broadcasts S1000x40
  inb_S1000x40_S1000x40_0_0 : ∀ a, (![0, 0] : Fin 2 → Nat) a + S1000x40.size a ≤ S1000x40.size a
  h_S1000x40 : 0 < S1000x40.numel
  scatter_S40000_S640000x1_S640000_n_0_0_1_wf : ScatterDims.WF S40000 S640000x1 S640000 [] [0] [0] 1
  gather_S40000x128_S640000x1_S640000x128_1_0_n_n_0_1_1128_wf : GatherDims.WF S40000x128 S640000x1 S640000x128 [1] [0] [] [0] [] 1 ![1, 128]
  scatter_S40000x128_S640000x1_S640000x128_1_0_0_1_wf : ScatterDims.WF S40000x128 S640000x1 S640000x128 [1] [0] [0] 1
  dot_S1000x128_S128x256_S1000x256_1_0_0_1_n_n_wf : DotDims.WF S1000x128 S128x256 S1000x256 [1] [0] [0] [1] [] []
  dot_S1000x256_S256x40_S1000x40_1_0_0_1_n_n_wf : DotDims.WF S1000x256 S256x40 S1000x40 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1000x128.size a ≤ S40000x128.size a
  hwx0_0 : ∀ i : grid0.Coords, EltTy.bits .f32 = 32 ∨ (Rect.block (s := S40000x128) S1000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x256.size a ≤ S128x256.size a
  hwx0_1 : ∀ i : grid0.Coords, EltTy.bits .f32 = 32 ∨ (Rect.block (s := S128x256) S128x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x256.size a ≤ S1x256.size a
  hwx0_2 : ∀ i : grid0.Coords, EltTy.bits .f32 = 32 ∨ (Rect.block (s := S1x256) S1x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x40.size a ≤ S256x40.size a
  hwx0_3 : ∀ i : grid0.Coords, EltTy.bits .f32 = 32 ∨ (Rect.block (s := S256x40) S256x40.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x40.size a ≤ S1x40.size a
  hwx0_4 : ∀ i : grid0.Coords, EltTy.bits .f32 = 32 ∨ (Rect.block (s := S1x40) S1x40.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1000x40.size a ≤ S40000x40.size a
  hwx0_5 : ∀ i : grid0.Coords, EltTy.bits .f32 = 32 ∨ (Rect.block (s := S40000x40) S1000x40.size (cc0_transform_5 i) (hinb0_5 i)).WholeWords (EltTy.packing .f32)

variable [Facts₀]

def scatter_S40000_S640000x1_S640000_n_0_0_1 : ScatterDims S40000 S640000x1 S640000 where
  updateWindowDims := []
  insertedWindowDims := [0]
  scatterDimsToOperandDims := [0]
  indexVectorDim := 1
  wf := scatter_S40000_S640000x1_S640000_n_0_0_1_wf
def gather_S40000x128_S640000x1_S640000x128_1_0_n_n_0_1_1128 : GatherDims S40000x128 S640000x1 S640000x128 where
  offsetDims := [1]
  collapsedSliceDims := [0]
  operandBatchingDims := []
  startIndicesBatchingDims := []
  startIndexMap := [0]
  indexVectorDim := 1
  sliceSizes := ![1, 128]
  wf := gather_S40000x128_S640000x1_S640000x128_1_0_n_n_0_1_1128_wf
def scatter_S40000x128_S640000x1_S640000x128_1_0_0_1 : ScatterDims S40000x128 S640000x1 S640000x128 where
  updateWindowDims := [1]
  insertedWindowDims := [0]
  scatterDimsToOperandDims := [0]
  indexVectorDim := 1
  wf := scatter_S40000x128_S640000x1_S640000x128_1_0_0_1_wf
def dot_S1000x128_S128x256_S1000x256_1_0_0_1_n_n : DotDims S1000x128 S128x256 S1000x256 where
  lhsContracting := [1]
  rhsContracting := [0]
  lhsNonContracting := [0]
  rhsNonContracting := [1]
  lhsBatch := []
  rhsBatch := []
  wf := dot_S1000x128_S128x256_S1000x256_1_0_0_1_n_n_wf
def dot_S1000x256_S256x40_S1000x40_1_0_0_1_n_n : DotDims S1000x256 S256x40 S1000x40 where
  lhsContracting := [1]
  rhsContracting := [0]
  lhsNonContracting := [0]
  rhsNonContracting := [1]
  lhsBatch := []
  rhsBatch := []
  wf := dot_S1000x256_S256x40_S1000x40_1_0_0_1_n_n_wf

abbrev win0_0 : Pipeline.Window sig grid0 :=
  Pipeline.Window.ofSpec (Memref.whole main_v35) S1000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v36) S1x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg5) S256x40.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v37) S1x40.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v38) S1000x40.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S40000x128 : Shape := ⟨2, ![40000, 128]⟩
abbrev S640000 : Shape := ⟨1, ![640000]⟩
abbrev S128x256 : Shape := ⟨2, ![128, 256]⟩
abbrev S256 : Shape := ⟨1, ![256]⟩
abbrev S256x40 : Shape := ⟨2, ![256, 40]⟩
abbrev S40 : Shape := ⟨1, ![40]⟩
abbrev S_ : Shape := ⟨0, ![]⟩
abbrev S40000 : Shape := ⟨1, ![40000]⟩
abbrev S640000x1 : Shape := ⟨2, ![640000, 1]⟩
abbrev S40000x1 : Shape := ⟨2, ![40000, 1]⟩
abbrev S640000x128 : Shape := ⟨2, ![640000, 128]⟩
abbrev S40000x256 : Shape := ⟨2, ![40000, 256]⟩
abbrev S1x256 : Shape := ⟨2, ![1, 256]⟩
abbrev S40000x40 : Shape := ⟨2, ![40000, 40]⟩
abbrev S1x40 : Shape := ⟨2, ![1, 40]⟩

abbrev nBuf : Space → Nat
  | .hbm => 63
  | .vmem => 0
  | .smem => 0
  | _ => 0

abbrev bufTy : (tb : Table) → Fin (tcTables nBuf tb) → BufTy
  | .hbm, ⟨0, _⟩ => ⟨S40000x128, .f32⟩
  | .hbm, ⟨1, _⟩ => ⟨S640000, .i32⟩
  | .hbm, ⟨2, _⟩ => ⟨S640000, .i32⟩
  | .hbm, ⟨3, _⟩ => ⟨S128x256, .f32⟩
  | .hbm, ⟨4, _⟩ => ⟨S256, .f32⟩
  | .hbm, ⟨5, _⟩ => ⟨S256x40, .f32⟩
  | .hbm, ⟨6, _⟩ => ⟨S40, .f32⟩
  | .hbm, ⟨7, _⟩ => ⟨S_, .f32⟩
  | .hbm, ⟨8, _⟩ => ⟨S640000, .f32⟩
  | .hbm, ⟨9, _⟩ => ⟨S_, .f32⟩
  | .hbm, ⟨10, _⟩ => ⟨S40000, .f32⟩
  | .hbm, ⟨11, _⟩ => ⟨S640000x1, .i32⟩
  | .hbm, ⟨12, _⟩ => ⟨S40000, .f32⟩
  | .hbm, ⟨13, _⟩ => ⟨S_, .f32⟩
  | .hbm, ⟨14, _⟩ => ⟨S40000, .f32⟩
  | .hbm, ⟨15, _⟩ => ⟨S40000, .f32⟩
  | .hbm, ⟨16, _⟩ => ⟨S40000, .f32⟩
  | .hbm, ⟨17, _⟩ => ⟨S40000x1, .f32⟩
  | .hbm, ⟨18, _⟩ => ⟨S40000x128, .f32⟩
  | .hbm, ⟨19, _⟩ => ⟨S40000x128, .f32⟩
  | .hbm, ⟨20, _⟩ => ⟨S_, .i32⟩
  | .hbm, ⟨21, _⟩ => ⟨S640000, .i32⟩
  | .hbm, ⟨22, _⟩ => ⟨S640000, .i1⟩
  | .hbm, ⟨23, _⟩ => ⟨S_, .i32⟩
  | .hbm, ⟨24, _⟩ => ⟨S640000, .i32⟩
  | .hbm, ⟨25, _⟩ => ⟨S640000, .i32⟩
  | .hbm, ⟨26, _⟩ => ⟨S640000, .i32⟩
  | .hbm, ⟨27, _⟩ => ⟨S640000x1, .i32⟩
  | .hbm, ⟨28, _⟩ => ⟨S640000x128, .f32⟩
  | .hbm, ⟨29, _⟩ => ⟨S_, .f32⟩
  | .hbm, ⟨30, _⟩ => ⟨S40000x128, .f32⟩
  | .hbm, ⟨31, _⟩ => ⟨S640000x1, .i32⟩
  | .hbm, ⟨32, _⟩ => ⟨S40000x128, .f32⟩
  | .hbm, ⟨33, _⟩ => ⟨S40000x128, .f32⟩
  | .hbm, ⟨34, _⟩ => ⟨S40000x128, .f32⟩
  | .hbm, ⟨35, _⟩ => ⟨S40000x128, .f32⟩
  | .hbm, ⟨36, _⟩ => ⟨S40000x128, .f32⟩
  | .hbm, ⟨37, _⟩ => ⟨S_, .i32⟩
  | .hbm, ⟨38, _⟩ => ⟨S640000, .i32⟩
  | .hbm, ⟨39, _⟩ => ⟨S640000, .i1⟩
  | .hbm, ⟨40, _⟩ => ⟨S_, .i32⟩
  | .hbm, ⟨41, _⟩ => ⟨S640000, .i32⟩
  | .hbm, ⟨42, _⟩ => ⟨S640000, .i32⟩
  | .hbm, ⟨43, _⟩ => ⟨S640000, .i32⟩
  | .hbm, ⟨44, _⟩ => ⟨S640000x1, .i32⟩
  | .hbm, ⟨45, _⟩ => ⟨S640000x128, .f32⟩
  | .hbm, ⟨46, _⟩ => ⟨S_, .f32⟩
  | .hbm, ⟨47, _⟩ => ⟨S40000x128, .f32⟩
  | .hbm, ⟨48, _⟩ => ⟨S640000x1, .i32⟩
  | .hbm, ⟨49, _⟩ => ⟨S40000x128, .f32⟩
  | .hbm, ⟨50, _⟩ => ⟨S40000x128, .f32⟩
  | .hbm, ⟨51, _⟩ => ⟨S40000x128, .f32⟩
  | .hbm, ⟨52, _⟩ => ⟨S40000x256, .f32⟩
  | .hbm, ⟨53, _⟩ => ⟨S1x256, .f32⟩
  | .hbm, ⟨54, _⟩ => ⟨S40000x256, .f32⟩
  | .hbm, ⟨55, _⟩ => ⟨S40000x256, .f32⟩
  | .hbm, ⟨56, _⟩ => ⟨S_, .f32⟩
  | .hbm, ⟨57, _⟩ => ⟨S40000x256, .f32⟩
  | .hbm, ⟨58, _⟩ => ⟨S40000x256, .f32⟩
  | .hbm, ⟨59, _⟩ => ⟨S40000x40, .f32⟩
  | .hbm, ⟨60, _⟩ => ⟨S1x40, .f32⟩
  | .hbm, ⟨61, _⟩ => ⟨S40000x40, .f32⟩
  | .hbm, ⟨62, _⟩ => ⟨S40000x40, .f32⟩
  | _, _ => ⟨S40000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_cst_0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst_1 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_c : Ref sig .tc := ⟨.hbm, 20, rfl⟩
abbrev main_v10 : Ref sig .tc := ⟨.hbm, 21, rfl⟩
abbrev main_v11 : Ref sig .tc := ⟨.hbm, 22, rfl⟩
abbrev main_c_2 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_cst_3 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_c_4 : Ref sig .tc := ⟨.hbm, 37, rfl⟩
abbrev main_v24 : Ref sig .tc := ⟨.hbm, 38, rfl⟩
abbrev main_v25 : Ref sig .tc := ⟨.hbm, 39, rfl⟩
abbrev main_c_5 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_cst_6 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_call0_cst : Ref sig .tc := ⟨.hbm, 56, rfl⟩
abbrev main_call0_v0 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩

abbrev nD : Nat := 1
abbrev τ : Topo := Topo.v7x

variable {F : FTy → Type} [FloatOps F]

class Facts₀ : Prop where
  bcast_S_S640000 : S_.BroadcastsInDim S640000 (![] : Fin 0 → Fin S640000.rank)
  bcast_S_S40000 : S_.BroadcastsInDim S40000 (![] : Fin 0 → Fin S40000.rank)
  bcast_S640000_S640000x1_0 : S640000.BroadcastsInDim S640000x1 (![0] : Fin 1 → Fin S640000x1.rank)
  bcast_S40000_S40000x1_0 : S40000.BroadcastsInDim S40000x1 (![0] : Fin 1 → Fin S40000x1.rank)
  bcast_S40000x1_S40000x128_0_1 : S40000x1.BroadcastsInDim S40000x128 (![0, 1] : Fin 2 → Fin S40000x128.rank)
  bcast_S_S40000x128 : S_.BroadcastsInDim S40000x128 (![] : Fin 0 → Fin S40000x128.rank)
  bcast_S256_S1x256_1 : S256.BroadcastsInDim S1x256 (![1] : Fin 1 → Fin S1x256.rank)
  bcast_S1x256_S40000x256_0_1 : S1x256.BroadcastsInDim S40000x256 (![0, 1] : Fin 2 → Fin S40000x256.rank)
  bcast_S_S40000x256 : S_.BroadcastsInDim S40000x256 (![] : Fin 0 → Fin S40000x256.rank)
  bcast_S40_S1x40_1 : S40.BroadcastsInDim S1x40 (![1] : Fin 1 → Fin S1x40.rank)
  bcast_S1x40_S40000x40_0_1 : S1x40.BroadcastsInDim S40000x40 (![0, 1] : Fin 2 → Fin S40000x40.rank)
  scatter_S40000_S640000x1_S640000_n_0_0_1_wf : ScatterDims.WF S40000 S640000x1 S640000 [] [0] [0] 1
  gather_S40000x128_S640000x1_S640000x128_1_0_n_n_0_1_1128_wf : GatherDims.WF S40000x128 S640000x1 S640000x128 [1] [0] [] [0] [] 1 ![1, 128]
  scatter_S40000x128_S640000x1_S640000x128_1_0_0_1_wf : ScatterDims.WF S40000x128 S640000x1 S640000x128 [1] [0] [0] 1
  dot_S40000x128_S128x256_S40000x256_1_0_0_1_n_n_wf : DotDims.WF S40000x128 S128x256 S40000x256 [1] [0] [0] [1] [] []
  dot_S40000x256_S256x40_S40000x40_1_0_0_1_n_n_wf : DotDims.WF S40000x256 S256x40 S40000x40 [1] [0] [0] [1] [] []

variable [Facts₀]

def scatter_S40000_S640000x1_S640000_n_0_0_1 : ScatterDims S40000 S640000x1 S640000 where
  updateWindowDims := []
  insertedWindowDims := [0]
  scatterDimsToOperandDims := [0]
  indexVectorDim := 1
  wf := scatter_S40000_S640000x1_S640000_n_0_0_1_wf
def gather_S40000x128_S640000x1_S640000x128_1_0_n_n_0_1_1128 : GatherDims S40000x128 S640000x1 S640000x128 where
  offsetDims := [1]
  collapsedSliceDims := [0]
  operandBatchingDims := []
  startIndicesBatchingDims := []
  startIndexMap := [0]
  indexVectorDim := 1
  sliceSizes := ![1, 128]
  wf := gather_S40000x128_S640000x1_S640000x128_1_0_n_n_0_1_1128_wf
def scatter_S40000x128_S640000x1_S640000x128_1_0_0_1 : ScatterDims S40000x128 S640000x1 S640000x128 where
  updateWindowDims := [1]
  insertedWindowDims := [0]
  scatterDimsToOperandDims := [0]
  indexVectorDim := 1
  wf := scatter_S40000x128_S640000x1_S640000x128_1_0_0_1_wf
def dot_S40000x128_S128x256_S40000x256_1_0_0_1_n_n : DotDims S40000x128 S128x256 S40000x256 where
  lhsContracting := [1]
  rhsContracting := [0]
  lhsNonContracting := [0]
  rhsNonContracting := [1]
  lhsBatch := []
  rhsBatch := []
  wf := dot_S40000x128_S128x256_S40000x256_1_0_0_1_n_n_wf
def dot_S40000x256_S256x40_S40000x40_1_0_0_1_n_n : DotDims S40000x256 S256x40 S40000x40 where
  lhsContracting := [1]
  rhsContracting := [0]
  lhsNonContracting := [0]
  rhsNonContracting := [1]
  lhsBatch := []
  rhsBatch := []
  wf := dot_S40000x256_S256x40_S40000x40_1_0_0_1_n_n_wf

class Facts : Prop extends Facts₀ where

variable [Facts]
-- ==== Proof.LibHostRead.lean ====
/-
  Host and kernel layout operations read at an index of a rank-2 array, and a plain matrix product as a sum.

  `broadcast_in_dim` in the five forms a row-wise reference uses — a vector as the one row or the one column of a
  matrix, a row or a column repeated along a matrix, a scalar spread over any shape —, each read at `ix2 p c`; and a
  dot that is rows × contraction times contraction × columns (`PlainDot`: one contracted axis, the four coordinate
  facts, each a `decide` or a library lemma at a literal dot) read at `(p, j)` as `Σ k, lhs (p, k) · rhs (k, j)`,
  for the host's `dot_general` and for the kernel's matrix product into the zero accumulator. On the extended reals.
-/
import Idealize.ShloMosaic.Lib.Pipeline.Value
import Idealize.ShloMosaic.Lib.ValueIdx
import Idealize.ShloMosaic.PureOps.Ideal.Laws

noncomputable section

namespace Cert.LibHostRead

open Idealize.ShloMosaic Idealize.ShloMosaic.ValueIdx

variable {α : Type}

/-- A vector `[b]` placed as the one row of `[1, b]`: at `(u, c)` it reads the vector at `c`. -/
theorem bid_b_1b_apply {b : ℕ} (x : (⟨1, ![b]⟩ : Shape).Idx → α) (h : (⟨1, ![b]⟩ : Shape).BroadcastsInDim ⟨2, ![1, b]⟩ ![1])
    (u : Fin 1) (c : Fin b) : broadcastInDim ⟨2, ![1, b]⟩ ![1] h x (ix2 u c) = x (ix1 c) :=
  broadcastInDim_apply _ h x _ _ fun a => by
    match a with
    | ⟨0, _⟩ =>
      show c.val = if b = 1 then 0 else c.val
      split
      · have := c.isLt; omega
      · rfl

/-- A row `[1, b]` repeated along `[a, b]`: at `(p, c)` it reads the row at `c`. -/
theorem bid_1b_ab_apply {a b : ℕ} (v : (⟨2, ![1, b]⟩ : Shape).Idx → α)
    (h : (⟨2, ![1, b]⟩ : Shape).BroadcastsInDim ⟨2, ![a, b]⟩ ![0, 1]) (p : Fin a) (c : Fin b) :
    broadcastInDim ⟨2, ![a, b]⟩ ![0, 1] h v (ix2 p c) = v (ix2 (0 : Fin 1) c) :=
  broadcastInDim_apply _ h v _ _ fun ax => by
    match ax with
    | ⟨0, _⟩ => show 0 = if (1 : ℕ) = 1 then 0 else p.val; rw [if_pos rfl]
    | ⟨1, _⟩ =>
      show c.val = if b = 1 then 0 else c.val
      split
      · have := c.isLt; omega
      · rfl

/-- A vector `[a]` placed as the one column of `[a, 1]`: at `(p, u)` it reads the vector at `p`. -/
theorem bid_a_a1_apply {a : ℕ} (x : (⟨1, ![a]⟩ : Shape).Idx → α) (h : (⟨1, ![a]⟩ : Shape).BroadcastsInDim ⟨2, ![a, 1]⟩ ![0])
    (p : Fin a) (u : Fin 1) : broadcastInDim ⟨2, ![a, 1]⟩ ![0] h x (ix2 p u) = x (ix1 p) :=
  broadcastInDim_apply _ h x _ _ fun ax => by
    match ax with
    | ⟨0, _⟩ =>
      show p.val = if a = 1 then 0 else p.val
      split
      · have := p.isLt; omega
      · rfl

/-- A column `[a, 1]` repeated along `[a, b]`: at `(p, c)` it reads the column at `p`. -/
theorem bid_a1_ab_apply {a b : ℕ} (v : (⟨2, ![a, 1]⟩ : Shape).Idx → α)
    (h : (⟨2, ![a, 1]⟩ : Shape).BroadcastsInDim ⟨2, ![a, b]⟩ ![0, 1]) (p : Fin a) (c : Fin b) :
    broadcastInDim ⟨2, ![a, b]⟩ ![0, 1] h v (ix2 p c) = v (ix2 p (0 : Fin 1)) :=
  broadcastInDim_apply _ h v _ _ fun ax => by
    match ax with
    | ⟨0, _⟩ =>
      show p.val = if a = 1 then 0 else p.val
      split
      · have := p.isLt; omega
      · rfl
    | ⟨1, _⟩ => show 0 = if (1 : ℕ) = 1 then 0 else c.val; rw [if_pos rfl]

/-- A scalar spread over any shape reads the scalar everywhere. -/
theorem bid_scalar_apply {t : Shape} (x : (⟨0, ![]⟩ : Shape).Idx → α) (h : (⟨0, ![]⟩ : Shape).BroadcastsInDim t ![])
    (i : t.Idx) : broadcastInDim t ![] h x i = x ix0 :=
  broadcastInDim_apply _ h x i ix0 fun a => a.elim0

/-- What makes a dot a plain product of an `M × K` by a `K × N` matrix: one contracted axis of extent `K`; the left operand
    is read at (row of the result, contracted coordinate), the right at (contracted coordinate, column of the result). -/
structure PlainDot {M K N : ℕ} (d : DotDims ⟨2, ![M, K]⟩ ⟨2, ![K, N]⟩ ⟨2, ![M, N]⟩) : Prop where
  hr : d.contr.rank = 1
  hs : d.contr.size ⟨0, by omega⟩ = K
  hl0 : ∀ (i : (⟨2, ![M, N]⟩ : Shape).Idx) (q : d.contr.Idx), (d.lhsIdx i q 0).val = (i 0).val
  hl1 : ∀ (i : (⟨2, ![M, N]⟩ : Shape).Idx) (q : d.contr.Idx), (d.lhsIdx i q 1).val = (q ⟨0, by omega⟩).val
  hr0 : ∀ (i : (⟨2, ![M, N]⟩ : Shape).Idx) (q : d.contr.Idx), (d.rhsIdx i q 0).val = (q ⟨0, by omega⟩).val
  hr1 : ∀ (i : (⟨2, ![M, N]⟩ : Shape).Idx) (q : d.contr.Idx), (d.rhsIdx i q 1).val = (i 1).val

/-- The sum over a plain dot's contraction index is the sum over `Fin K` of the products along row `p` and column `j`. -/
theorem PlainDot.sum_eq {M K N : ℕ} {d : DotDims ⟨2, ![M, K]⟩ ⟨2, ![K, N]⟩ ⟨2, ![M, N]⟩} (hd : PlainDot d)
    (lhs : (⟨2, ![M, K]⟩ : Shape).Idx → EReal) (rhs : (⟨2, ![K, N]⟩ : Shape).Idx → EReal) (p : Fin M) (j : Fin N) :
    ∑ k : d.contr.Idx, lhs (d.lhsIdx (ix2 p j) k) * rhs (d.rhsIdx (ix2 p j) k) = ∑ k : Fin K, lhs (ix2 p k) * rhs (ix2 k j) := by
  rw [← Equiv.sum_comp (contrEquiv1 d K hd.hr hd.hs).symm]
  refine Finset.sum_congr rfl fun k _ => ?_
  have hk := contrEquiv1_symm_val d K hd.hr hd.hs k
  have el : d.lhsIdx (ix2 p j) ((contrEquiv1 d K hd.hr hd.hs).symm k) = ix2 p k := funext fun a => Fin.ext (by
    match a with
    | ⟨0, _⟩ => exact hd.hl0 _ _
    | ⟨1, _⟩ => exact (hd.hl1 _ _).trans hk)
  have er : d.rhsIdx (ix2 p j) ((contrEquiv1 d K hd.hr hd.hs).symm k) = ix2 k j := funext fun a => Fin.ext (by
    match a with
    | ⟨0, _⟩ => exact (hd.hr0 _ _).trans hk
    | ⟨1, _⟩ => exact hd.hr1 _ _)
  rw [el, er]

/-- The host's product of two matrices at `(p, j)`. -/
theorem dotGeneral_plain_apply {M K N : ℕ} {φ₁ φ₂ : FTy} (d : DotDims ⟨2, ![M, K]⟩ ⟨2, ![K, N]⟩ ⟨2, ![M, N]⟩)
    (hd : PlainDot d) (lhs : FVec Ideal ⟨2, ![M, K]⟩ φ₁) (rhs : FVec Ideal ⟨2, ![K, N]⟩ φ₂) (p : Fin M) (j : Fin N) :
    FloatOps.dotGeneral d none .single lhs rhs (ix2 p j) = ∑ k : Fin K, lhs (ix2 p k) * rhs (ix2 k j) := by
  rw [Ideal.dotGeneral_apply]
  exact hd.sum_eq lhs rhs p j

/-- The kernel's matrix product into the zero accumulator at `(p, j)`. -/
theorem matmul_plain_zero_apply {M K N : ℕ} {φ₁ φ₂ : FTy} (d : DotDims ⟨2, ![M, K]⟩ ⟨2, ![K, N]⟩ ⟨2, ![M, N]⟩)
    (hd : PlainDot d) (lhs : FVec Ideal ⟨2, ![M, K]⟩ φ₁) (rhs : FVec Ideal ⟨2, ![K, N]⟩ φ₂) (p : Fin M) (j : Fin N) :
    FloatOps.matmul d none lhs rhs (constant ⟨2, ![M, N]⟩ .f32 0x00000000#32) (ix2 p j)
      = ∑ k : Fin K, lhs (ix2 p k) * rhs (ix2 k j) := by
  rw [Ideal.matmul_constant_zero_apply]
  exact hd.sum_eq lhs rhs p j

end Cert.LibHostRead

end
-- ==== Proof.LibDenseRelu.lean ====
/-
  A dense layer with a rectifier, read at one entry, on the extended reals.

  `affine X W B p q = max(Σ k, X(p,k) · W(k,q) + B(0,q), 0)` is entry (p, q) of `max(X · W + b, 0)` with the bias row `B`
  repeated along the rows, and `affine2 H T W0 W1 B p q = max((Σ k, H(p,k) · W0(k,q) + Σ k, T(p,k) · W1(k,q)) + B(0,q), 0)`
  the same with two products. Each is reached two ways:
    * the host's way — `dot_general`, the bias row broadcast along the rows, `add`, `maximum` against a broadcast zero;
    * the vector unit's way — operands narrowed to bf16 (the identity on extended reals), a matrix product into a zero
      accumulator, the bias row re-cast and broadcast, `addf`, `maximumf` against a splat zero.
  No law of arithmetic is used beyond reading each operation at an index: the two ways are the same expression.
-/
import proofs.«130791_j25864293056528_1_alg».proof.Proof.LibHostRead
import Idealize.ShloMosaic.Lib.ValueLayout

noncomputable section

namespace Cert.LibDenseRelu

open Idealize.ShloMosaic Idealize.ShloMosaic.ValueIdx Cert.LibHostRead

variable {M K N : ℕ}

/-- Entry (p, q) of `max(X · W + b, 0)`, the bias given as a 1 × N row. -/
def affine (X : (⟨2, ![M, K]⟩ : Shape).Idx → EReal) (W : (⟨2, ![K, N]⟩ : Shape).Idx → EReal)
    (B : (⟨2, ![1, N]⟩ : Shape).Idx → EReal) (p : Fin M) (q : Fin N) : EReal :=
  max ((∑ k : Fin K, X (ix2 p k) * W (ix2 k q)) + B (ix2 (0 : Fin 1) q)) 0

/-- Entry (p, q) of `max((H · W0 + T · W1) + b, 0)`. -/
def affine2 (H T : (⟨2, ![M, K]⟩ : Shape).Idx → EReal) (W0 W1 : (⟨2, ![K, N]⟩ : Shape).Idx → EReal)
    (B : (⟨2, ![1, N]⟩ : Shape).Idx → EReal) (p : Fin M) (q : Fin N) : EReal :=
  max (((∑ k : Fin K, H (ix2 p k) * W0 (ix2 k q)) + ∑ k : Fin K, T (ix2 p k) * W1 (ix2 k q)) + B (ix2 (0 : Fin 1) q)) 0

/-- The host's dense layer at an entry. -/
theorem host_affine_apply (d : DotDims ⟨2, ![M, K]⟩ ⟨2, ![K, N]⟩ ⟨2, ![M, N]⟩) (hd : PlainDot d)
    (hb : (⟨2, ![1, N]⟩ : Shape).BroadcastsInDim ⟨2, ![M, N]⟩ ![0, 1]) (hz : (⟨0, ![]⟩ : Shape).BroadcastsInDim ⟨2, ![M, N]⟩ ![])
    (X : FVec Ideal ⟨2, ![M, K]⟩ .f32) (W : FVec Ideal ⟨2, ![K, N]⟩ .f32) (B : FVec Ideal ⟨2, ![1, N]⟩ .f32) (p : Fin M) (q : Fin N) :
    maximumf (addf (Host.dotGeneral d none X W) (broadcastInDim ⟨2, ![M, N]⟩ ![0, 1] hb B))
        (broadcastInDim ⟨2, ![M, N]⟩ ![] hz (constant (F := Ideal) ⟨0, ![]⟩ .f32 0x00000000#32)) (ix2 p q)
      = affine X W B p q := by
  rw [maximumf_apply, addf_apply, bid_1b_ab_apply, bid_scalar_apply, constant_apply, Ideal.ofBits_zero_f32]
  show max (FloatOps.dotGeneral d none .single X W (ix2 p q) + _) 0 = _
  rw [dotGeneral_plain_apply d hd]
  rfl

/-- The host's two-product layer at an entry. -/
theorem host_affine2_apply (d : DotDims ⟨2, ![M, K]⟩ ⟨2, ![K, N]⟩ ⟨2, ![M, N]⟩) (hd : PlainDot d)
    (hb : (⟨2, ![1, N]⟩ : Shape).BroadcastsInDim ⟨2, ![M, N]⟩ ![0, 1]) (hz : (⟨0, ![]⟩ : Shape).BroadcastsInDim ⟨2, ![M, N]⟩ ![])
    (H T : FVec Ideal ⟨2, ![M, K]⟩ .f32) (W0 W1 : FVec Ideal ⟨2, ![K, N]⟩ .f32) (B : FVec Ideal ⟨2, ![1, N]⟩ .f32) (p : Fin M) (q : Fin N) :
    maximumf (addf (addf (Host.dotGeneral d none H W0) (Host.dotGeneral d none T W1)) (broadcastInDim ⟨2, ![M, N]⟩ ![0, 1] hb B))
        (broadcastInDim ⟨2, ![M, N]⟩ ![] hz (constant (F := Ideal) ⟨0, ![]⟩ .f32 0x00000000#32)) (ix2 p q)
      = affine2 H T W0 W1 B p q := by
  rw [maximumf_apply, addf_apply, addf_apply, bid_1b_ab_apply, bid_scalar_apply, constant_apply, Ideal.ofBits_zero_f32]
  show max ((FloatOps.dotGeneral d none .single H W0 (ix2 p q) + FloatOps.dotGeneral d none .single T W1 (ix2 p q)) + _) 0 = _
  rw [dotGeneral_plain_apply d hd, dotGeneral_plain_apply d hd]
  rfl

/-- The vector unit's dense layer at an entry. -/
theorem vec_affine_apply (d : DotDims ⟨2, ![M, K]⟩ ⟨2, ![K, N]⟩ ⟨2, ![M, N]⟩) (hd : PlainDot d)
    (hn : FTy.bf16.bits < FTy.f32.bits) (hs : (⟨2, ![1, N]⟩ : Shape).ShapeCasts ⟨2, ![1, N]⟩)
    (hbt : (⟨2, ![1, N]⟩ : Shape).Broadcasts ⟨2, ![M, N]⟩)
    (x0 : FVec Ideal ⟨2, ![M, K]⟩ .f32) (x1 : FVec Ideal ⟨2, ![K, N]⟩ .f32) (x2 : FVec Ideal ⟨2, ![1, N]⟩ .f32) (p : Fin M) (q : Fin N) :
    maximumf (addf (matmul d none (truncf .bf16 x0 hn) (truncf .bf16 x1 hn) (constant ⟨2, ![M, N]⟩ .f32 0x00000000#32))
          (broadcastTo ⟨2, ![M, N]⟩ (shapeCast ⟨2, ![1, N]⟩ x2 hs) hbt))
        (broadcast ⟨2, ![M, N]⟩ (Scalar.ofBits (F := Ideal) .f32 0x00000000#32)) (ix2 p q)
      = affine x0 x1 x2 p q := by
  rw [maximumf_apply, addf_apply, broadcast_apply, shapeCast_self, broadcastTo_1b_ab_apply]
  show max (FloatOps.matmul d none (truncf .bf16 x0 hn) (truncf .bf16 x1 hn) (constant ⟨2, ![M, N]⟩ .f32 0x00000000#32) (ix2 p q) + _)
      (Ideal.ofBits .f32 0x00000000#32) = _
  rw [matmul_plain_zero_apply d hd, Ideal.ofBits_zero_f32]
  rfl

/-- The vector unit's two-product layer at an entry. -/
theorem vec_affine2_apply (d : DotDims ⟨2, ![M, K]⟩ ⟨2, ![K, N]⟩ ⟨2, ![M, N]⟩) (hd : PlainDot d)
    (hn : FTy.bf16.bits < FTy.f32.bits) (hc : (⟨2, ![M, K]⟩ : Shape).ShapeCasts ⟨2, ![M, K]⟩)
    (hs : (⟨2, ![1, N]⟩ : Shape).ShapeCasts ⟨2, ![1, N]⟩) (hbt : (⟨2, ![1, N]⟩ : Shape).Broadcasts ⟨2, ![M, N]⟩)
    (h t : FVec Ideal ⟨2, ![M, K]⟩ .f32) (w0 w1 : FVec Ideal ⟨2, ![K, N]⟩ .f32) (x2 : FVec Ideal ⟨2, ![1, N]⟩ .f32) (p : Fin M) (q : Fin N) :
    maximumf (addf (addf
            (matmul d none (truncf .bf16 (shapeCast ⟨2, ![M, K]⟩ h hc) hn) (truncf .bf16 w0 hn) (constant ⟨2, ![M, N]⟩ .f32 0x00000000#32))
            (matmul d none (truncf .bf16 (shapeCast ⟨2, ![M, K]⟩ t hc) hn) (truncf .bf16 w1 hn) (constant ⟨2, ![M, N]⟩ .f32 0x00000000#32)))
          (broadcastTo ⟨2, ![M, N]⟩ (shapeCast ⟨2, ![1, N]⟩ x2 hs) hbt))
        (broadcast ⟨2, ![M, N]⟩ (Scalar.ofBits (F := Ideal) .f32 0x00000000#32)) (ix2 p q)
      = affine2 h t w0 w1 x2 p q := by
  rw [maximumf_apply, addf_apply, addf_apply, broadcast_apply, shapeCast_self, shapeCast_self, shapeCast_self, broadcastTo_1b_ab_apply]
  show max ((FloatOps.matmul d none (truncf .bf16 h hn) (truncf .bf16 w0 hn) (constant ⟨2, ![M, N]⟩ .f32 0x00000000#32) (ix2 p q)
        + FloatOps.matmul d none (truncf .bf16 t hn) (truncf .bf16 w1 hn) (constant ⟨2, ![M, N]⟩ .f32 0x00000000#32) (ix2 p q)) + _)
      (Ideal.ofBits .f32 0x00000000#32) = _
  rw [matmul_plain_zero_apply d hd, matmul_plain_zero_apply d hd, Ideal.ofBits_zero_f32]
  rfl

/-! ## The layers as whole arrays -/

/-- `max(X · W + b, 0)` as an M × N array. -/
def layer (X : (⟨2, ![M, K]⟩ : Shape).Idx → EReal) (W : (⟨2, ![K, N]⟩ : Shape).Idx → EReal)
    (B : (⟨2, ![1, N]⟩ : Shape).Idx → EReal) : (⟨2, ![M, N]⟩ : Shape).Idx → EReal :=
  fun i => affine X W B ⟨(i 0).val, idx2_lt0 i⟩ ⟨(i 1).val, idx2_lt1 i⟩

/-- `max((H · W0 + T · W1) + b, 0)` as an M × N array. -/
def layer2 (H T : (⟨2, ![M, K]⟩ : Shape).Idx → EReal) (W0 W1 : (⟨2, ![K, N]⟩ : Shape).Idx → EReal)
    (B : (⟨2, ![1, N]⟩ : Shape).Idx → EReal) : (⟨2, ![M, N]⟩ : Shape).Idx → EReal :=
  fun i => affine2 H T W0 W1 B ⟨(i 0).val, idx2_lt0 i⟩ ⟨(i 1).val, idx2_lt1 i⟩

theorem layer_ix2 (X : (⟨2, ![M, K]⟩ : Shape).Idx → EReal) (W : (⟨2, ![K, N]⟩ : Shape).Idx → EReal)
    (B : (⟨2, ![1, N]⟩ : Shape).Idx → EReal) (p : Fin M) (q : Fin N) : layer X W B (ix2 p q) = affine X W B p q := rfl

theorem layer2_ix2 (H T : (⟨2, ![M, K]⟩ : Shape).Idx → EReal) (W0 W1 : (⟨2, ![K, N]⟩ : Shape).Idx → EReal)
    (B : (⟨2, ![1, N]⟩ : Shape).Idx → EReal) (p : Fin M) (q : Fin N) : layer2 H T W0 W1 B (ix2 p q) = affine2 H T W0 W1 B p q := rfl

/-- The host's dense layer is that array. -/
theorem host_layer_eq (d : DotDims ⟨2, ![M, K]⟩ ⟨2, ![K, N]⟩ ⟨2, ![M, N]⟩) (hd : PlainDot d)
    (hb : (⟨2, ![1, N]⟩ : Shape).BroadcastsInDim ⟨2, ![M, N]⟩ ![0, 1]) (hz : (⟨0, ![]⟩ : Shape).BroadcastsInDim ⟨2, ![M, N]⟩ ![])
    (X : FVec Ideal ⟨2, ![M, K]⟩ .f32) (W : FVec Ideal ⟨2, ![K, N]⟩ .f32) (B : FVec Ideal ⟨2, ![1, N]⟩ .f32) :
    maximumf (addf (Host.dotGeneral d none X W) (broadcastInDim ⟨2, ![M, N]⟩ ![0, 1] hb B))
        (broadcastInDim ⟨2, ![M, N]⟩ ![] hz (constant (F := Ideal) ⟨0, ![]⟩ .f32 0x00000000#32))
      = layer X W B := by
  funext i
  obtain ⟨p, q, rfl⟩ : ∃ (p : Fin M) (q : Fin N), i = ix2 p q := ⟨i 0, i 1, eq_ix2 i⟩
  exact host_affine_apply d hd hb hz X W B p q

/-- The host's two-product layer is that array. -/
theorem host_layer2_eq (d : DotDims ⟨2, ![M, K]⟩ ⟨2, ![K, N]⟩ ⟨2, ![M, N]⟩) (hd : PlainDot d)
    (hb : (⟨2, ![1, N]⟩ : Shape).BroadcastsInDim ⟨2, ![M, N]⟩ ![0, 1]) (hz : (⟨0, ![]⟩ : Shape).BroadcastsInDim ⟨2, ![M, N]⟩ ![])
    (H T : FVec Ideal ⟨2, ![M, K]⟩ .f32) (W0 W1 : FVec Ideal ⟨2, ![K, N]⟩ .f32) (B : FVec Ideal ⟨2, ![1, N]⟩ .f32) :
    maximumf (addf (addf (Host.dotGeneral d none H W0) (Host.dotGeneral d none T W1)) (broadcastInDim ⟨2, ![M, N]⟩ ![0, 1] hb B))
        (broadcastInDim ⟨2, ![M, N]⟩ ![] hz (constant (F := Ideal) ⟨0, ![]⟩ .f32 0x00000000#32))
      = layer2 H T W0 W1 B := by
  funext i
  obtain ⟨p, q, rfl⟩ : ∃ (p : Fin M) (q : Fin N), i = ix2 p q := ⟨i 0, i 1, eq_ix2 i⟩
  exact host_affine2_apply d hd hb hz H T W0 W1 B p q

/-- A layer's entry (p, q) reads row `p` of its first operand, column `q` of the weights and entry `q` of the bias row:
    operands that agree there (row `p` of one against row `r` of the other) give the same entry. Used to read a block of
    rows out of the whole array. -/
theorem affine_congr {M' : ℕ} (X : (⟨2, ![M, K]⟩ : Shape).Idx → EReal) (X' : (⟨2, ![M', K]⟩ : Shape).Idx → EReal)
    (W W' : (⟨2, ![K, N]⟩ : Shape).Idx → EReal) (B B' : (⟨2, ![1, N]⟩ : Shape).Idx → EReal) (p : Fin M) (r : Fin M') (q : Fin N)
    (hX : ∀ k : Fin K, X (ix2 p k) = X' (ix2 r k)) (hW : ∀ k : Fin K, W (ix2 k q) = W' (ix2 k q))
    (hB : B (ix2 (0 : Fin 1) q) = B' (ix2 (0 : Fin 1) q)) : affine X W B p q = affine X' W' B' r q := by
  unfold affine
  simp only [hX, hW, hB]

theorem affine2_congr {M' : ℕ} (H T : (⟨2, ![M, K]⟩ : Shape).Idx → EReal) (H' T' : (⟨2, ![M', K]⟩ : Shape).Idx → EReal)
    (W0 W0' W1 W1' : (⟨2, ![K, N]⟩ : Shape).Idx → EReal) (B B' : (⟨2, ![1, N]⟩ : Shape).Idx → EReal) (p : Fin M) (r : Fin M') (q : Fin N)
    (hH : ∀ k : Fin K, H (ix2 p k) = H' (ix2 r k)) (hT : ∀ k : Fin K, T (ix2 p k) = T' (ix2 r k))
    (hW0 : ∀ k : Fin K, W0 (ix2 k q) = W0' (ix2 k q)) (hW1 : ∀ k : Fin K, W1 (ix2 k q) = W1' (ix2 k q))
    (hB : B (ix2 (0 : Fin 1) q) = B' (ix2 (0 : Fin 1) q)) :
    affine2 H T W0 W1 B p q = affine2 H' T' W0' W1' B' r q := by
  unfold affine2
  simp only [hH, hT, hW0, hW1, hB]

end Cert.LibDenseRelu

end
-- ==== Proof.Head.lean ====
/-
  A two-layer perceptron read at one entry, on the extended reals.

  `lin Y W B p q = Σ k, Y(p,k) · W(k,q) + B(0,q)` is entry (p, q) of `Y · W + b` with the bias row `B` repeated along
  the rows, and `mlp X W1 B1 W2 B2` is the array `max(X · W1 + b1, 0) · W2 + b2`: its entry (p, q) is `lin` of the
  rectified hidden layer. It is reached two ways:
    * the host's way — two `dot_general`s, each bias row broadcast along the rows, `maximum` against a broadcast zero;
    * the vector unit's way — operands narrowed to bf16 (the identity on extended reals), two matrix products into zero
      accumulators, each bias row re-cast and broadcast, `maximumf` against a splat zero.
  Both are the same expression: no law of arithmetic is used beyond reading each operation at an index. An entry in
  row `p` reads only row `p` of `X` (`mlp_entry_congr`), which is what lets a block of rows be computed by itself.
-/
import proofs.«130791_j25864293056528_1_alg».proof.Proof.LibDenseRelu

noncomputable section

namespace Cert.Head

open Idealize.ShloMosaic Idealize.ShloMosaic.ValueIdx Cert.LibHostRead Cert.LibDenseRelu

variable {M K H N : ℕ}

/-- Entry (p, q) of `Y · W + b`, the bias given as a 1 × N row. -/
def lin (Y : (⟨2, ![M, H]⟩ : Shape).Idx → EReal) (W : (⟨2, ![H, N]⟩ : Shape).Idx → EReal)
    (B : (⟨2, ![1, N]⟩ : Shape).Idx → EReal) (p : Fin M) (q : Fin N) : EReal :=
  (∑ k : Fin H, Y (ix2 p k) * W (ix2 k q)) + B (ix2 (0 : Fin 1) q)

/-- `max(X · W1 + b1, 0) · W2 + b2` as an M × N array. -/
def mlp (X : (⟨2, ![M, K]⟩ : Shape).Idx → EReal) (W1 : (⟨2, ![K, H]⟩ : Shape).Idx → EReal)
    (B1 : (⟨2, ![1, H]⟩ : Shape).Idx → EReal) (W2 : (⟨2, ![H, N]⟩ : Shape).Idx → EReal)
    (B2 : (⟨2, ![1, N]⟩ : Shape).Idx → EReal) : (⟨2, ![M, N]⟩ : Shape).Idx → EReal :=
  fun i => lin (layer X W1 B1) W2 B2 ⟨(i 0).val, idx2_lt0 i⟩ ⟨(i 1).val, idx2_lt1 i⟩

theorem mlp_ix2 (X : (⟨2, ![M, K]⟩ : Shape).Idx → EReal) (W1 : (⟨2, ![K, H]⟩ : Shape).Idx → EReal)
    (B1 : (⟨2, ![1, H]⟩ : Shape).Idx → EReal) (W2 : (⟨2, ![H, N]⟩ : Shape).Idx → EReal)
    (B2 : (⟨2, ![1, N]⟩ : Shape).Idx → EReal) (p : Fin M) (q : Fin N) :
    mlp X W1 B1 W2 B2 (ix2 p q) = lin (layer X W1 B1) W2 B2 p q := rfl

/-- The host's perceptron is that array. -/
theorem host_mlp_eq (d1 : DotDims ⟨2, ![M, K]⟩ ⟨2, ![K, H]⟩ ⟨2, ![M, H]⟩) (hd1 : PlainDot d1)
    (d2 : DotDims ⟨2, ![M, H]⟩ ⟨2, ![H, N]⟩ ⟨2, ![M, N]⟩) (hd2 : PlainDot d2)
    (hb1 : (⟨2, ![1, H]⟩ : Shape).BroadcastsInDim ⟨2, ![M, H]⟩ ![0, 1]) (hz : (⟨0, ![]⟩ : Shape).BroadcastsInDim ⟨2, ![M, H]⟩ ![])
    (hb2 : (⟨2, ![1, N]⟩ : Shape).BroadcastsInDim ⟨2, ![M, N]⟩ ![0, 1])
    (X : FVec Ideal ⟨2, ![M, K]⟩ .f32) (W1 : FVec Ideal ⟨2, ![K, H]⟩ .f32) (B1 : FVec Ideal ⟨2, ![1, H]⟩ .f32)
    (W2 : FVec Ideal ⟨2, ![H, N]⟩ .f32) (B2 : FVec Ideal ⟨2, ![1, N]⟩ .f32) :
    addf (Host.dotGeneral d2 none
          (maximumf (addf (Host.dotGeneral d1 none X W1) (broadcastInDim ⟨2, ![M, H]⟩ ![0, 1] hb1 B1))
            (broadcastInDim ⟨2, ![M, H]⟩ ![] hz (constant (F := Ideal) ⟨0, ![]⟩ .f32 0x00000000#32))) W2)
        (broadcastInDim ⟨2, ![M, N]⟩ ![0, 1] hb2 B2)
      = mlp X W1 B1 W2 B2 := by
  rw [host_layer_eq d1 hd1 hb1 hz]
  funext i
  obtain ⟨p, q, rfl⟩ : ∃ (p : Fin M) (q : Fin N), i = ix2 p q := ⟨i 0, i 1, eq_ix2 i⟩
  rw [addf_apply, bid_1b_ab_apply]
  show FloatOps.dotGeneral d2 none .single (layer X W1 B1) W2 (ix2 p q) + _ = _
  rw [dotGeneral_plain_apply d2 hd2]
  rfl

/-- The vector unit's perceptron at an entry. -/
theorem vec_mlp_apply (d1 : DotDims ⟨2, ![M, K]⟩ ⟨2, ![K, H]⟩ ⟨2, ![M, H]⟩) (hd1 : PlainDot d1)
    (d2 : DotDims ⟨2, ![M, H]⟩ ⟨2, ![H, N]⟩ ⟨2, ![M, N]⟩) (hd2 : PlainDot d2)
    (hn : FTy.bf16.bits < FTy.f32.bits) (hc : (⟨2, ![M, K]⟩ : Shape).ShapeCasts ⟨2, ![M, K]⟩)
    (hs1 : (⟨2, ![1, H]⟩ : Shape).ShapeCasts ⟨2, ![1, H]⟩) (hbt1 : (⟨2, ![1, H]⟩ : Shape).Broadcasts ⟨2, ![M, H]⟩)
    (hs2 : (⟨2, ![1, N]⟩ : Shape).ShapeCasts ⟨2, ![1, N]⟩) (hbt2 : (⟨2, ![1, N]⟩ : Shape).Broadcasts ⟨2, ![M, N]⟩)
    (x0 : FVec Ideal ⟨2, ![M, K]⟩ .f32) (x1 : FVec Ideal ⟨2, ![K, H]⟩ .f32) (x2 : FVec Ideal ⟨2, ![1, H]⟩ .f32)
    (x3 : FVec Ideal ⟨2, ![H, N]⟩ .f32) (x4 : FVec Ideal ⟨2, ![1, N]⟩ .f32) (p : Fin M) (q : Fin N) :
    addf (matmul d2 none
          (truncf .bf16
            (maximumf (addf (matmul d1 none (truncf .bf16 (shapeCast ⟨2, ![M, K]⟩ x0 hc) hn) (truncf .bf16 x1 hn)
                  (constant ⟨2, ![M, H]⟩ .f32 0x00000000#32))
                (broadcastTo ⟨2, ![M, H]⟩ (shapeCast ⟨2, ![1, H]⟩ x2 hs1) hbt1))
              (broadcast ⟨2, ![M, H]⟩ (Scalar.ofBits (F := Ideal) .f32 0x00000000#32))) hn)
          (truncf .bf16 x3 hn) (constant ⟨2, ![M, N]⟩ .f32 0x00000000#32))
        (broadcastTo ⟨2, ![M, N]⟩ (shapeCast ⟨2, ![1, N]⟩ x4 hs2) hbt2) (ix2 p q)
      = lin (layer x0 x1 x2) x3 x4 p q := by
  rw [addf_apply, shapeCast_self x4, broadcastTo_1b_ab_apply, shapeCast_self x0]
  show FloatOps.matmul d2 none _ (truncf .bf16 x3 hn) (constant ⟨2, ![M, N]⟩ .f32 0x00000000#32) (ix2 p q) + _ = _
  rw [matmul_plain_zero_apply d2 hd2]
  refine congrArg (· + x4 (ix2 (0 : Fin 1) q)) (Finset.sum_congr rfl fun k _ => ?_)
  exact congrArg (· * x3 (ix2 k q)) (vec_affine_apply d1 hd1 hn hs1 hbt1 x0 x1 x2 p k)

/-- An entry in row `p` reads only row `p` of the first operand: against another first operand whose row `r` agrees
    with it, entry (r, q) there is the same number. -/
theorem mlp_entry_congr {M' : ℕ} (X : (⟨2, ![M, K]⟩ : Shape).Idx → EReal) (X' : (⟨2, ![M', K]⟩ : Shape).Idx → EReal)
    (W1 : (⟨2, ![K, H]⟩ : Shape).Idx → EReal) (B1 : (⟨2, ![1, H]⟩ : Shape).Idx → EReal)
    (W2 : (⟨2, ![H, N]⟩ : Shape).Idx → EReal) (B2 : (⟨2, ![1, N]⟩ : Shape).Idx → EReal) (p : Fin M) (r : Fin M') (q : Fin N)
    (hX : ∀ k : Fin K, X (ix2 p k) = X' (ix2 r k)) :
    lin (layer X W1 B1) W2 B2 p q = lin (layer X' W1 B1) W2 B2 r q := by
  unfold lin
  refine congrArg (· + B2 (ix2 (0 : Fin 1) q)) (Finset.sum_congr rfl fun k _ => ?_)
  rw [layer_ix2, layer_ix2, affine_congr X X' W1 W1 B1 B1 p r k hX (fun _ => rfl) rfl]

end Cert.Head

end
-- ==== Proof.KernelPay.lean ====
/-
  The kernel body's one stored value, read at an entry.

  The body loads a block of 1000 rows of the propagated features, both weight matrices and both bias rows, and stores
  `max(x · W1 + b1, 0) · W2 + b2` for those rows: the vector unit's perceptron of `Head`. Both matrix products are plain
  (rows × contraction times contraction × columns), which is four coordinate facts about each printed dot.
-/
import proofs.«130791_j25864293056528_1_alg».proof.Proof.Gen.KernelIdeal.Skeleton
import proofs.«130791_j25864293056528_1_alg».proof.Proof.Head

noncomputable section

namespace Cert.KernelIdeal.Pay

open Cert.KernelIdeal Cert.KernelIdeal.Gen Idealize.ShloMosaic Idealize.ShloMosaic.ValueIdx
open Cert.LibHostRead Cert.LibDenseRelu Cert.Head

/-- The first product, [1000,128] × [128,256], is plain. -/
theorem plain1 : PlainDot dot_S1000x128_S128x256_S1000x256_1_0_0_1_n_n where
  hr := rfl
  hs := rfl
  hl0 := fun i q => by
    unfold DotDims.lhsIdx
    rw [dif_neg (show ¬(0 : Fin S1000x128.rank) ∈ dot_S1000x128_S128x256_S1000x256_1_0_0_1_n_n.lhsBatch by decide),
      dif_pos (show (0 : Fin S1000x128.rank) ∈ dot_S1000x128_S128x256_S1000x256_1_0_0_1_n_n.lhsNonContracting by decide)]
    rfl
  hl1 := fun i q => dot_S1000x128_S128x256_S1000x256_1_0_0_1_n_n.lhsIdx_val_of_single rfl i q
  hr0 := fun i q => dot_S1000x128_S128x256_S1000x256_1_0_0_1_n_n.rhsIdx_val_of_single rfl i q
  hr1 := fun i q => by
    unfold DotDims.rhsIdx
    rw [dif_neg (show ¬(1 : Fin S128x256.rank) ∈ dot_S1000x128_S128x256_S1000x256_1_0_0_1_n_n.rhsBatch by decide),
      dif_pos (show (1 : Fin S128x256.rank) ∈ dot_S1000x128_S128x256_S1000x256_1_0_0_1_n_n.rhsNonContracting by decide)]
    rfl

/-- The second product, [1000,256] × [256,40], is plain. -/
theorem plain2 : PlainDot dot_S1000x256_S256x40_S1000x40_1_0_0_1_n_n where
  hr := rfl
  hs := rfl
  hl0 := fun i q => by
    unfold DotDims.lhsIdx
    rw [dif_neg (show ¬(0 : Fin S1000x256.rank) ∈ dot_S1000x256_S256x40_S1000x40_1_0_0_1_n_n.lhsBatch by decide),
      dif_pos (show (0 : Fin S1000x256.rank) ∈ dot_S1000x256_S256x40_S1000x40_1_0_0_1_n_n.lhsNonContracting by decide)]
    rfl
  hl1 := fun i q => dot_S1000x256_S256x40_S1000x40_1_0_0_1_n_n.lhsIdx_val_of_single rfl i q
  hr0 := fun i q => dot_S1000x256_S256x40_S1000x40_1_0_0_1_n_n.rhsIdx_val_of_single rfl i q
  hr1 := fun i q => by
    unfold DotDims.rhsIdx
    rw [dif_neg (show ¬(1 : Fin S256x40.rank) ∈ dot_S1000x256_S256x40_S1000x40_1_0_0_1_n_n.rhsBatch by decide),
      dif_pos (show (1 : Fin S256x40.rank) ∈ dot_S1000x256_S256x40_S1000x40_1_0_0_1_n_n.rhsNonContracting by decide)]
    rfl

/-- Entry (p, q) of the stored block: `Σ k, max(Σ j, x0(p,j) · x1(j,k) + x2(0,k), 0) · x3(k,q) + x4(0,q)`. -/
theorem pay_apply (x0 : FVec Ideal S1000x128 .f32) (x1 : FVec Ideal S128x256 .f32) (x2 : FVec Ideal S1x256 .f32)
    (x3 : FVec Ideal S256x40 .f32) (x4 : FVec Ideal S1x40 .f32) (p : Fin 1000) (q : Fin 40) :
    k0_pay1 (F := Ideal) x0 x1 x2 x3 x4 (ix2 p q) = lin (layer x0 x1 x2) x3 x4 p q := by
  unfold k0_pay1
  exact vec_mlp_apply _ plain1 _ plain2 _ _ _ _ _ _ x0 x1 x2 x3 x4 p q

end Cert.KernelIdeal.Pay

end
-- ==== Proof.KernelBlocks.lean ====
/-
  From the forty blocks to the whole result array.

  The grid has forty points; point `t` loads rows 1000·t … 1000·t + 999 of the propagated features (the other four
  operands whole, at every point) and writes back the same rows of the result. Since an entry of the perceptron in
  row `r` reads only row `r` of the features, what point `t` writes back is block `t` of ONE array: the perceptron of
  the whole propagated features. The forty blocks tile the 40000 rows (row `r` lies in block `r / 1000`), so after the
  run the result array is that perceptron.
-/
import proofs.«130791_j25864293056528_1_alg».proof.Proof.Gen.KernelIdeal.Value
import proofs.«130791_j25864293056528_1_alg».proof.Proof.KernelPay

noncomputable section

namespace Cert.KernelIdeal.Blocks

open Cert.KernelIdeal Cert.KernelIdeal.Gen Idealize.ShloMosaic Idealize.ShloMosaic.TcCoe Idealize.SL.Sem
open Idealize.ShloMosaic.ValueIdx Cert.LibHostRead Cert.LibDenseRelu Cert.Head
open Idealize.ShloMosaic.Pipeline (Dat)

variable (m : (ℓ : Loc nD τ sig) → Buf (Elt Ideal) ℓ) (ρ : Dev nD → PrngReg)

theorem hz : (![0, 0] : Fin 2 → Nat) = fun _ => 0 := funext fun a => by fin_cases a <;> rfl

/-- The printed index maps, decided over the forty points: the features' and the result's block index is (t, 0), every
    other operand's is (0, 0). -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- The result array: the perceptron of the arrays the region finds in its five operands — the propagated features,
    the two weight matrices and the two bias rows. -/
def G (c : Dev nD) : S40000x40.Idx → EReal :=
  mlp (V m c (Pipeline.arrRef spec0 0)) (V m c (Pipeline.arrRef spec0 1)) (V m c (Pipeline.arrRef spec0 2))
    (V m c (Pipeline.arrRef spec0 3)) (V m c (Pipeline.arrRef spec0 4))

/-- The five operands by name. -/
theorem G_eq (c : Dev nD) :
    G m c = mlp (V m c main_v35) (V m c main_arg3) (V m c main_v36) (V m c main_arg5) (V m c main_v37) := rfl

/-- Entry `j` of a block stored at a point whose features' block `x0` holds, row for row, the rows of `X` starting at
    row `T`: it is the perceptron's entry at row `T + (row of j)`, same column. The other four operands are whole arrays. -/
theorem block_entry (X : FVec Ideal S40000x128 .f32) (W1 : FVec Ideal S128x256 .f32) (B1 : FVec Ideal S1x256 .f32)
    (W2 : FVec Ideal S256x40 .f32) (B2 : FVec Ideal S1x40 .f32)
    (x0 : FVec Ideal S1000x128 .f32) (x1 : FVec Ideal S128x256 .f32) (x2 : FVec Ideal S1x256 .f32)
    (x3 : FVec Ideal S256x40 .f32) (x4 : FVec Ideal S1x40 .f32)
    (T : ℕ) (j : S1000x40.Idx) (i : S40000x40.Idx) (hi0 : (i 0).val = T + (j 0).val) (hi1 : (i 1).val = (j 1).val)
    (hX : ∀ (x : S1000x128.Idx) (k : S40000x128.Idx), (k 0).val = T + (x 0).val → (k 1).val = (x 1).val → x0 x = X k)
    (e1 : x1 = W1) (e2 : x2 = B1) (e3 : x3 = W2) (e4 : x4 = B2) :
    k0_pay1 (F := Ideal) x0 x1 x2 x3 x4 j = mlp X W1 B1 W2 B2 i := by
  subst e1 e2 e3 e4
  obtain ⟨p, q, rfl⟩ : ∃ (p : Fin 1000) (q : Fin 40), j = ix2 p q := ⟨j 0, j 1, eq_ix2 j⟩
  obtain ⟨r, q', rfl⟩ : ∃ (r : Fin 40000) (q' : Fin 40), i = ix2 r q' := ⟨i 0, i 1, eq_ix2 i⟩
  obtain rfl : q' = q := Fin.ext hi1
  rw [Pay.pay_apply, mlp_ix2]
  exact mlp_entry_congr x0 X x1 x2 x3 x4 p r q' (fun k => hX (ix2 p k) (ix2 r k) hi0 rfl)

/-! The windows' blocks of ANY arrays (the arrays are variables here: what the region finds in them plays no part). -/

/-- The features' block at point `t` is rows 1000·t … 1000·t + 999 of the array. -/
theorem read0_apply (t : Fin cfg0.N) (A : FVec Ideal S40000x128 .f32) (x : S1000x128.Idx) (k : S40000x128.Idx)
    (hk0 : (k 0).val = t.val * 1000 + (x 0).val) (hk1 : (k 1).val = (x 1).val) :
    (((cfg0.win 0).blk t).view.read (Elt Ideal) A : FVec Ideal S1000x128 .f32) x = A k := by
  obtain ⟨e00, e01, -⟩ := idx_facts t
  show A (((cfg0.win 0).blk t).view.emb x) = A k
  refine congrArg A (funext fun a => Fin.ext ?_)
  match a with
  | ⟨0, _⟩ => show win0_0.index t (0 : Fin 2) * 1000 + 1 * (x 0).val = (k 0).val; omega
  | ⟨1, _⟩ => show win0_0.index t (1 : Fin 2) * 128 + 1 * (x 1).val = (k 1).val; omega

/-- The first weight matrix is loaded whole at every point. -/
theorem read1_eq (t : Fin cfg0.N) (A : FVec Ideal S128x256 .f32) :
    (((cfg0.win 1).blk t).view.read (Elt Ideal) A : FVec Ideal S128x256 .f32) = A := by
  obtain ⟨-, -, e10, e11, -⟩ := idx_facts t
  funext y
  show A (((cfg0.win 1).blk t).view.emb y) = A y
  refine congrArg A (funext fun a => Fin.ext ?_)
  match a with
  | ⟨0, _⟩ => show win0_1.index t (0 : Fin 2) * 128 + 1 * (y 0).val = (y 0).val; omega
  | ⟨1, _⟩ => show win0_1.index t (1 : Fin 2) * 256 + 1 * (y 1).val = (y 1).val; omega

/-- The first bias row is loaded whole at every point. -/
theorem read2_eq (t : Fin cfg0.N) (A : FVec Ideal S1x256 .f32) :
    (((cfg0.win 2).blk t).view.read (Elt Ideal) A : FVec Ideal S1x256 .f32) = A := by
  obtain ⟨-, -, -, -, e20, e21, -⟩ := idx_facts t
  funext y
  show A (((cfg0.win 2).blk t).view.emb y) = A y
  refine congrArg A (funext fun a => Fin.ext ?_)
  match a with
  | ⟨0, _⟩ => show win0_2.index t (0 : Fin 2) * 1 + 1 * (y 0).val = (y 0).val; omega
  | ⟨1, _⟩ => show win0_2.index t (1 : Fin 2) * 256 + 1 * (y 1).val = (y 1).val; omega

/-- The second weight matrix is loaded whole at every point. -/
theorem read3_eq (t : Fin cfg0.N) (A : FVec Ideal S256x40 .f32) :
    (((cfg0.win 3).blk t).view.read (Elt Ideal) A : FVec Ideal S256x40 .f32) = A := by
  obtain ⟨-, -, -, -, -, -, e30, e31, -⟩ := idx_facts t
  funext y
  show A (((cfg0.win 3).blk t).view.emb y) = A y
  refine congrArg A (funext fun a => Fin.ext ?_)
  match a with
  | ⟨0, _⟩ => show win0_3.index t (0 : Fin 2) * 256 + 1 * (y 0).val = (y 0).val; omega
  | ⟨1, _⟩ => show win0_3.index t (1 : Fin 2) * 40 + 1 * (y 1).val = (y 1).val; omega

/-- The second bias row is loaded whole at every point. -/
theorem read4_eq (t : Fin cfg0.N) (A : FVec Ideal S1x40 .f32) :
    (((cfg0.win 4).blk t).view.read (Elt Ideal) A : FVec Ideal S1x40 .f32) = A := by
  obtain ⟨-, -, -, -, -, -, -, -, e40, e41, -⟩ := idx_facts t
  funext y
  show A (((cfg0.win 4).blk t).view.emb y) = A y
  refine congrArg A (funext fun a => Fin.ext ?_)
  match a with
  | ⟨0, _⟩ => show win0_4.index t (0 : Fin 2) * 1 + 1 * (y 0).val = (y 0).val; omega
  | ⟨1, _⟩ => show win0_4.index t (1 : Fin 2) * 40 + 1 * (y 1).val = (y 1).val; omega

/-- The body's result on the blocks of any five arrays at point `t`, cut to the result's block, is block `t` of the
    perceptron of the five arrays. -/
theorem flush_core (t : Fin cfg0.N) (A0 : FVec Ideal S40000x128 .f32) (A1 : FVec Ideal S128x256 .f32)
    (A2 : FVec Ideal S1x256 .f32) (A3 : FVec Ideal S256x40 .f32) (A4 : FVec Ideal S1x40 .f32) :
    (cfg0.win 5).cut (grid0.coords t)
        (out0_5 (F := Ideal) (((cfg0.win 0).blk t).view.read (Elt Ideal) A0) (((cfg0.win 1).blk t).view.read (Elt Ideal) A1)
          (((cfg0.win 2).blk t).view.read (Elt Ideal) A2) (((cfg0.win 3).blk t).view.read (Elt Ideal) A3)
          (((cfg0.win 4).blk t).view.read (Elt Ideal) A4))
      = ((cfg0.win 5).blk t).view.read (Elt Ideal) (mlp A0 A1 A2 A3 A4) := by
  unfold out0_5
  rw [View.canon_unit_zero hz]
  simp only [View.ld_unit_zero (S := S1000x128) hz, View.ld_unit_zero (S := S128x256) hz, View.ld_unit_zero (S := S1x256) hz,
    View.ld_unit_zero (S := S256x40) hz, View.ld_unit_zero (S := S1x40) hz]
  obtain ⟨-, -, -, -, -, -, -, -, -, -, e50, e51⟩ := idx_facts t
  funext j
  show k0_pay1 (F := Ideal) (((cfg0.win 0).blk t).view.read (Elt Ideal) A0) (((cfg0.win 1).blk t).view.read (Elt Ideal) A1)
        (((cfg0.win 2).blk t).view.read (Elt Ideal) A2) (((cfg0.win 3).blk t).view.read (Elt Ideal) A3)
        (((cfg0.win 4).blk t).view.read (Elt Ideal) A4) j
      = mlp A0 A1 A2 A3 A4 (((cfg0.win 5).blk t).view.emb j)
  refine block_entry A0 A1 A2 A3 A4 _ _ _ _ _ (t.val * 1000) j (((cfg0.win 5).blk t).view.emb j) ?_ ?_
    (read0_apply t A0) (read1_eq t A1) (read2_eq t A2) (read3_eq t A3) (read4_eq t A4)
  · show win0_5.index t (0 : Fin 2) * 1000 + 1 * (j 0).val = t.val * 1000 + (j 0).val; omega
  · show win0_5.index t (1 : Fin 2) * 40 + 1 * (j 1).val = (j 1).val; omega

/-- WHAT POINT `t` WRITES BACK is block `t` of `G`. -/
theorem flushed_eq (c : Dev nD) (t : Fin cfg0.N) :
    (dats m 0 c).flushed 5 t = ((cfg0.win 5).blk t).view.read (Elt Ideal) (G m c) := by
  rw [Value.flushed5]
  exact flush_core t (V m c (Pipeline.arrRef spec0 0)) (V m c (Pipeline.arrRef spec0 1)) (V m c (Pipeline.arrRef spec0 2))
    (V m c (Pipeline.arrRef spec0 3)) (V m c (Pipeline.arrRef spec0 4))

/-- An index of the result array is in point `t`'s block iff each coordinate is in the block's range on its axis. -/
theorem mem_blk (t : Fin cfg0.N) (i : S40000x40.Idx) :
    i ∈ ((cfg0.win 5).blk t).view.set ↔ ∀ a : Fin 2, win0_5.index t a * S1000x40.size a ≤ (i a).val ∧ (i a).val < win0_5.index t a * S1000x40.size a + S1000x40.size a := by
  show i ∈ ((View.whole main_v38).slice (win0_5.rect t)).set ↔ _
  rw [View.set_slice_whole, Rect.mem_set_unit]
  exact Iff.rfl

/-- The blocks cover the array: row `r` lies in the block of point `r / 1000`. -/
theorem cover (i : S40000x40.Idx) : ∃ t : Fin cfg0.N, (cfg0.win 5).flush t = true ∧ i ∈ ((cfg0.win 5).blk t).view.set := by
  have hi0 : (i 0).val < 40000 := (i 0).isLt
  have hi1 : (i 1).val < 40 := (i 1).isLt
  have hN : grid0.N = 40 := N_0
  refine ⟨⟨(i 0).val / 1000, by show (i 0).val / 1000 < grid0.N; omega⟩, flush0_5 _, ?_⟩
  rw [mem_blk]
  obtain ⟨-, -, -, -, -, -, -, -, -, -, e50, e51⟩ := idx_facts ⟨(i 0).val / 1000, by show (i 0).val / 1000 < grid0.N; omega⟩
  have e50' : win0_5.index ⟨(i 0).val / 1000, by show (i 0).val / 1000 < grid0.N; omega⟩ (0 : Fin 2) = (i 0).val / 1000 := e50
  intro a
  match a with
  | ⟨0, _⟩ =>
    show win0_5.index _ (0 : Fin 2) * 1000 ≤ (i 0).val ∧ (i 0).val < win0_5.index _ (0 : Fin 2) * 1000 + 1000
    rw [e50']; omega
  | ⟨1, _⟩ =>
    show win0_5.index _ (1 : Fin 2) * 40 ≤ (i 1).val ∧ (i 1).val < win0_5.index _ (1 : Fin 2) * 40 + 40
    rw [e51]; omega

/-- THE ARRAY after the run is `G`. -/
theorem final (c : Dev nD) : (dats m 0 c).arrAt 5 cfg0.N = G m c :=
  (dats m 0 c).arrAt_eq_of_cover 5 (G m c) (fun t _ => flushed_eq m c t) cover

/-- The kernel's run re-posted: the result array at `G`, the arguments unchanged. -/
theorem run : θ_run defs (onTc (τ := τ) (main (F := Ideal))) ⟨m, fun _ => 0, ρ⟩ fun r => ∀ c : Dev nD,
      r.2.mem ((c : Thread nD τ).loc main_v38) = G m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun r h c => ⟨(h c).1.trans (final m c), (h c).2⟩) (Value.run_blocks m ρ)

end Cert.KernelIdeal.Blocks

end
-- ==== Proof.RefSide.lean ====
/-
  The reference's result as the perceptron of its propagated features.

  The reference propagates the features over the graph (its first 45 operations, kept here as ONE function of the
  features and the two edge-index arrays, never opened) and then applies `max(h · W1 + b1, 0) · W2 + b2` with
  `dot_general`s and broadcasts: the host's perceptron of `Head`. A bias vector placed as the one row of a [1, N] array
  is the row `rowOf b`.
-/
import proofs.«130791_j25864293056528_1_alg».proof.Proof.Gen.ReferenceIdeal.Read
import proofs.«130791_j25864293056528_1_alg».proof.Proof.Head

noncomputable section

namespace Cert.ReferenceIdeal.RefValue

open Cert.ReferenceIdeal Cert.ReferenceIdeal.Read Idealize.ShloMosaic Idealize.ShloMosaic.ValueIdx
open Cert.LibHostRead Cert.LibDenseRelu Cert.Head

/-- The first product, [40000,128] × [128,256], is plain. -/
theorem plain1 : PlainDot dot_S40000x128_S128x256_S40000x256_1_0_0_1_n_n where
  hr := rfl
  hs := rfl
  hl0 := lhs_main_v36_0
  hl1 := lhs_main_v36_1
  hr0 := rhs_main_v36_0
  hr1 := rhs_main_v36_1

/-- The second product, [40000,256] × [256,40], is plain. -/
theorem plain2 : PlainDot dot_S40000x256_S256x40_S40000x40_1_0_0_1_n_n where
  hr := rfl
  hs := rfl
  hl0 := lhs_main_v41_0
  hl1 := lhs_main_v41_1
  hr0 := rhs_main_v41_0
  hr1 := rhs_main_v41_1

/-- A vector `[n]` as the one row of a `[1, n]` array. -/
def rowOf {n : ℕ} (b : (⟨1, ![n]⟩ : Shape).Idx → EReal) : (⟨2, ![1, n]⟩ : Shape).Idx → EReal :=
  fun i => b (ix1 ⟨(i 1).val, idx2_lt1 i⟩)

theorem rowOf_ix2 {n : ℕ} (b : (⟨1, ![n]⟩ : Shape).Idx → EReal) (u : Fin 1) (c : Fin n) : rowOf b (ix2 u c) = b (ix1 c) := rfl

/-- `broadcast_in_dim` of a vector along a new leading unit axis is that row. -/
theorem bid_row_eq {n : ℕ} (b : (⟨1, ![n]⟩ : Shape).Idx → EReal) (h : (⟨1, ![n]⟩ : Shape).BroadcastsInDim ⟨2, ![1, n]⟩ ![1]) :
    broadcastInDim ⟨2, ![1, n]⟩ ![1] h b = rowOf b := by
  funext i
  obtain ⟨u, c, rfl⟩ : ∃ (u : Fin 1) (c : Fin n), i = ix2 u c := ⟨i 0, i 1, eq_ix2 i⟩
  exact bid_b_1b_apply b h u c

/-- The reference's result is the perceptron of its propagated features `val_main_v35`, the weights and the bias rows. -/
theorem result_eq (x0 : FVec Ideal S40000x128 .f32) (x1 x2 : (⟨S640000, .i32⟩ : BufTy).Contents (Elt Ideal))
    (x3 : FVec Ideal S128x256 .f32) (x4 : FVec Ideal S256 .f32) (x5 : FVec Ideal S256x40 .f32) (x6 : FVec Ideal S40 .f32) :
    val_main_v44 (F := Ideal) x0 x1 x2 x3 x4 x5 x6
      = mlp (val_main_v35 (F := Ideal) x0 x1 x2) x3 (rowOf x4) x5 (rowOf x6) := by
  unfold val_main_v44 val_main_v43 val_main_v42 val_main_v41 val_main_v40 val_main_call0_v0 val_main_call0_cst
    val_main_v39 val_main_v38 val_main_v37 val_main_v36
  generalize val_main_v35 (F := Ideal) x0 x1 x2 = h
  rw [bid_row_eq x4, bid_row_eq x6]
  exact host_mlp_eq _ plain1 _ plain2 _ _ _ h x3 (rowOf x4) x5 (rowOf x6)

end Cert.ReferenceIdeal.RefValue

end
-- ==== Proof.HostPrefix.lean ====
/-
  What the region finds in the arrays its windows read.

  Before the region the kernel's program propagates the features over the graph with the very operations the reference
  uses (degree count by an accumulating scatter, `rsqrt` of the clamped degree, and twice: scale, gather along the edges'
  sources, scatter-add at their destinations, scale). The propagated features the region finds are therefore the
  reference's propagation `val_main_v35` of the same three arguments — the two terms are the same operations of the same
  arrays, and are never opened. The two bias rows the region finds are the bias vectors re-cast to one row.
-/
import proofs.«130791_j25864293056528_1_alg».proof.Proof.Gen.KernelIdeal.Frame
import proofs.«130791_j25864293056528_1_alg».proof.Proof.RefSide
import Idealize.ShloMosaic.Lib.StableHlo.Run

noncomputable section

namespace Cert.KernelIdeal.HostPrefix

open Cert.KernelIdeal Cert.KernelIdeal.Gen Idealize.ShloMosaic Idealize.ShloMosaic.TcCoe Idealize.SL.Sem
open Idealize.ShloMosaic.StableHlo Idealize.ShloMosaic.ValueIdx
open Cert.ReferenceIdeal.RefValue (rowOf)

variable (m : (ℓ : Loc nD τ sig) → Buf (Elt Ideal) ℓ)

set_option maxRecDepth 8192 in
set_option maxHeartbeats 2000000 in
/-- The propagated features the region finds are the reference's propagation of the features and the edge indices. -/
theorem v35_eq (c : Dev nD) :
    V m c main_v35
      = Cert.ReferenceIdeal.Read.val_main_v35 (F := Ideal) (m ((c : Thread nD τ).loc main_arg0))
          (m ((c : Thread nD τ).loc main_arg1)) (m ((c : Thread nD τ).loc main_arg2)) := by
  dsimp only [V, hostOps0]
  after_results_simp
  rfl

/-- A vector re-cast to `[1, n]` is its one row. -/
theorem cast_row_eq {n : ℕ} (b : (⟨1, ![n]⟩ : Shape).Idx → EReal) (h : (⟨1, ![n]⟩ : Shape).ShapeCasts ⟨2, ![1, n]⟩) :
    shapeCast ⟨2, ![1, n]⟩ b h = rowOf b := by
  funext j
  rw [shapeCast_addUnit_apply ![n] b h j]
  exact congrArg b (funext fun a => by
    match a with
    | ⟨0, _⟩ => exact Fin.ext rfl)

set_option maxRecDepth 8192 in
set_option maxHeartbeats 2000000 in
/-- The first bias row the region finds. -/
theorem v36_eq (c : Dev nD) : V m c main_v36 = rowOf (m ((c : Thread nD τ).loc main_arg4)) := by
  dsimp only [V, hostOps0]
  after_results_simp
  exact cast_row_eq (m ((c : Thread nD τ).loc main_arg4)) _

set_option maxRecDepth 8192 in
set_option maxHeartbeats 2000000 in
/-- The second bias row the region finds. -/
theorem v37_eq (c : Dev nD) : V m c main_v37 = rowOf (m ((c : Thread nD τ).loc main_arg6)) := by
  dsimp only [V, hostOps0]
  after_results_simp
  exact cast_row_eq (m ((c : Thread nD τ).loc main_arg6)) _

end Cert.KernelIdeal.HostPrefix

end
-- ==== Proof.lean ====
/-
  The certificate of a two-hop graph propagation followed by a two-layer perceptron.

  Both programs first propagate the node features over the graph — degree count by an accumulating scatter, the reciprocal
  square root of the clamped degree, and twice: scale, gather along the edges' sources, scatter-add at their destinations,
  scale — with the SAME host operations, and then apply `max(h · W1 + b1, 0) · W2 + b2` to the propagated features `h`.
  The kernel's program does this last step in a region of forty grid points, each computing a block of 1000 rows with two
  matrix products on the vector unit (its operands narrowed to bf16, which is the identity on extended reals); the
  reference does it with two `dot_general`s on the whole arrays.

  On the extended reals the two results are the same expression of the same numbers, entry by entry:
  `Σ k, max(Σ j, h(r,j) · W1(j,k) + b1(k), 0) · W2(k,q) + b2(q)`. No law of arithmetic is needed (no regrouping of a sum,
  no distributivity), so the precondition that the inputs are finite is never opened. The steps:
    * `Head`        — the perceptron `mlp` at an entry, the host's way and the vector unit's way; an entry in row `r` reads
                      only row `r` of the features;
    * `KernelPay`   — the body's stored value is the vector unit's perceptron of its loaded blocks;
    * `KernelBlocks` — point `t` writes back rows 1000·t … 1000·t + 999 of the perceptron of the WHOLE propagated features,
                      and the forty blocks tile the result, so the result array is that perceptron (`G`);
    * `RefSide`     — the reference's result is the perceptron of ITS propagated features;
    * `HostPrefix`  — the propagated features the region finds are the reference's propagation of the same arguments,
                      and the bias rows the region finds are the bias vectors as rows.
  The frames of the two kernel programs are the generated ones; the reference's frame is its generated run with the
  result dropped; the idealization rewrote nothing, so `preserves` is `True`.
-/
import proofs.«130791_j25864293056528_1_alg».proof.Defs
import proofs.«130791_j25864293056528_1_alg».proof.Proof.Gen.Kernel
import proofs.«130791_j25864293056528_1_alg».proof.Proof.Gen.Kernel.Skeleton
import proofs.«130791_j25864293056528_1_alg».proof.Proof.Gen.Kernel.Launch
import proofs.«130791_j25864293056528_1_alg».proof.Proof.Gen.Kernel.Points
import proofs.«130791_j25864293056528_1_alg».proof.Proof.Gen.Kernel.Frame
import proofs.«130791_j25864293056528_1_alg».proof.Proof.Gen.KernelIdeal
import proofs.«130791_j25864293056528_1_alg».proof.Proof.Gen.KernelIdeal.Skeleton
import proofs.«130791_j25864293056528_1_alg».proof.Proof.Gen.KernelIdeal.Launch
import proofs.«130791_j25864293056528_1_alg».proof.Proof.Gen.KernelIdeal.Points
import proofs.«130791_j25864293056528_1_alg».proof.Proof.Gen.KernelIdeal.Frame
import proofs.«130791_j25864293056528_1_alg».proof.Proof.Gen.ReferenceIdeal
import proofs.«130791_j25864293056528_1_alg».proof.Proof.Gen.Pre_finite_inputs
import proofs.«130791_j25864293056528_1_alg».proof.Proof.Gen.KernelIdeal.Value
import proofs.«130791_j25864293056528_1_alg».proof.Proof.Gen.ReferenceIdeal.Run
import proofs.«130791_j25864293056528_1_alg».proof.Proof.Gen.ReferenceIdeal.Read
import proofs.«130791_j25864293056528_1_alg».proof.Proof.KernelBlocks
import proofs.«130791_j25864293056528_1_alg».proof.Proof.HostPrefix
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

/-- The reference's frame: its run, with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories that agree on the arguments both programs end with the result array at the perceptron of the
    propagated features: the kernel's by its forty blocks, the reference's by its run read one operation at a time; the
    two propagations are the same operations of the same arguments. -/
theorem algebraic : Cert.algebraic_KernelIdeal_ReferenceIdeal := by
  intro m ρ m' ρ' _ hagree
  refine ⟨fun c => Cert.KernelIdeal.Blocks.G m c, Cert.KernelIdeal.Blocks.run m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5, a6⟩ := hagree c
  show Cert.ReferenceIdeal.Value.res_main_v44 m' c = Cert.KernelIdeal.Blocks.G m c
  rw [Cert.ReferenceIdeal.Read.val_main_v44_eq, Cert.ReferenceIdeal.RefValue.result_eq, a0, a1, a2, a3, a4, a5, a6,
    Cert.KernelIdeal.Blocks.G_eq, Cert.KernelIdeal.HostPrefix.v35_eq, Cert.KernelIdeal.HostPrefix.v36_eq,
    Cert.KernelIdeal.HostPrefix.v37_eq, Cert.KernelIdeal.Gen.V_main_arg3, Cert.KernelIdeal.Gen.V_main_arg5]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
